-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x32 .f32) (main_arg10 : FVec F S32 .f32) (main_arg11 : FVec F S32x1 .f32) (main_arg12 : FVec F S1 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg11
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x32 .f32) (main_arg10 : FVec F S32 .f32) (main_arg11 : FVec F S32x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x32 .f32) (main_arg10 : FVec F S32 .f32) (main_arg11 : FVec F S32x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S1x32 : Shape := ⟨2, ![1, 32]⟩
abbrev S1x1 : Shape := ⟨2, ![1, 1]⟩
abbrev S100000x1 : Shape := ⟨2, ![100000, 1]⟩
abbrev S10000x1 : Shape := ⟨2, ![10000, 1]⟩
abbrev S10000x32 : Shape := ⟨2, ![10000, 32]⟩

abbrev nBuf : Space → Nat
  | .hbm => 108
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S100000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S_, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S1700000x1, .f32⟩
  | .hbm, ⟨54, _⟩ => ⟨S100000x64, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x64, .f32⟩
  | .hbm, ⟨64, _⟩ => ⟨S1700000x64, .f32⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x64, .f32⟩
  | .hbm, ⟨98, _⟩ => ⟨S1700000x64, .f32⟩
  | .hbm, ⟨99, _⟩ => ⟨S1700000x64, .f32⟩
  | .hbm, ⟨100, _⟩ => ⟨S_, .f32⟩
  | .hbm, ⟨101, _⟩ => ⟨S100000x64, .f32⟩
  | .hbm, ⟨102, _⟩ => ⟨S1700000x1, .i32⟩
  | .hbm, ⟨103, _⟩ => ⟨S100000x64, .f32⟩
  | .hbm, ⟨104, _⟩ => ⟨S1x64, .f32⟩
  | .hbm, ⟨105, _⟩ => ⟨S1x32, .f32⟩
  | .hbm, ⟨106, _⟩ => ⟨S1x1, .f32⟩
  | .hbm, ⟨107, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S64x32, .f32⟩
  | .local _ .vmem, ⟨21, _⟩ => ⟨S1x32, .f32⟩
  | .local _ .vmem, ⟨22, _⟩ => ⟨S32x1, .f32⟩
  | .local _ .vmem, ⟨23, _⟩ => ⟨S1x1, .f32⟩
  | .local _ .vmem, ⟨24, _⟩ => ⟨S10000x1, .f32⟩
  | .local _ .vmem, ⟨25, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem6_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S32_S1x32 : S32.ShapeCasts S1x32
  shapeCasts_S1_S1x1 : S1.ShapeCasts S1x1
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x1.size a ≤ S32x1.size a
  hwx3_4 : ∀ i : grid3.Coords, EltTy.bits .f32 = 32 ∨ (Rect.block (s := S32x1) S32x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x1.size a ≤ S100000x1.size a
  hwx3_6 : ∀ i : grid3.Coords, EltTy.bits .f32 = 32 ∨ (Rect.block (s := S100000x1) S10000x1.size (cc3_transform_6 i) (hinb3_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v71) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S32x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v74) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v75) S10000x1.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 133
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x32, .f32⟩
  | 10 => ⟨S32, .f32⟩
  | 11 => ⟨S32x1, .f32⟩
  | 12 => ⟨S1, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x64, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x64, .f32⟩
  | 63 => ⟨S1700000x1, .f32⟩
  | 64 => ⟨S1700000x64, .f32⟩
  | 65 => ⟨S1700000x64, .f32⟩
  | 66 => ⟨S_, .f32⟩
  | 67 => ⟨S100000x64, .f32⟩
  | 68 => ⟨S1700000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x64, .f32⟩
  | 86 => ⟨S1700000x1, .f32⟩
  | 87 => ⟨S1700000x64, .f32⟩
  | 88 => ⟨S1700000x64, .f32⟩
  | 89 => ⟨S_, .f32⟩
  | 90 => ⟨S100000x64, .f32⟩
  | 91 => ⟨S1700000x1, .i32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S100000x64, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000x64, .f32⟩
  | 109 => ⟨S1700000x1, .f32⟩
  | 110 => ⟨S1700000x64, .f32⟩
  | 111 => ⟨S1700000x64, .f32⟩
  | 112 => ⟨S_, .f32⟩
  | 113 => ⟨S100000x64, .f32⟩
  | 114 => ⟨S1700000x1, .i32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S100000x32, .f32⟩
  | 123 => ⟨S1x32, .f32⟩
  | 124 => ⟨S100000x32, .f32⟩
  | 125 => ⟨S100000x32, .f32⟩
  | 126 => ⟨S_, .f32⟩
  | 127 => ⟨S100000x32, .f32⟩
  | _ => ⟨S100000x128, .f32⟩

abbrev hbmTy0_1 (i : Nat) : BufTy := match i % 128 with
  | 0 => ⟨S100000x32, .f32⟩
  | 1 => ⟨S100000x1, .f32⟩
  | 2 => ⟨S1x1, .f32⟩
  | 3 => ⟨S100000x1, .f32⟩
  | 4 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_cst : Ref sig .tc := ⟨.hbm, 96, rfl⟩
abbrev main_call2_v0 : Ref sig .tc := ⟨.hbm, 97, rfl⟩
abbrev main_v65 : Ref sig .tc := ⟨.hbm, 98, rfl⟩
abbrev main_v66 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_14 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call3_cst : Ref sig .tc := ⟨.hbm, 119, rfl⟩
abbrev main_call3_v0 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_call4_cst : Ref sig .tc := ⟨.hbm, 126, rfl⟩
abbrev main_call4_v0 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KRun.lean ====
/-
  The idealized kernel's run with its result named. The program is four kernel regions among stretches of host
  operations; every weakly fair execution ends with every unscoped buffer at the contents the last segment leaves, so
  the result buffer ends at the last region's output array after its ten write-backs, and the arguments as launched.
-/
import proofs.«117196_j8624294331203_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents
    the last region leaves and every argument array as launched. -/
theorem run_result : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.Hand

end
-- ==== Proof.Spec.lean ====
/-
  The graph network both programs compute, as whole-array functions of the argument arrays.

  N = 100000 nodes carry feature rows; E = 1600000 edges (source row / destination row of an integer array [2, E]) are
  followed by N self loops, 1700000 edges in all. Every node's degree counts the edges arriving at it; its weight is
  the inverse square root of the degree where that is positive and 0 elsewhere; an edge's weight is the product of the
  weights of its two ends. One aggregation sends a feature matrix h [N, 64] to the matrix whose row n is the sum, over
  the edges arriving at n, of the source row of h times the edge's weight. A dense layer adds a bias row, clamps below
  at 0 and multiplies by a weight matrix. The network is

      x·W1  →  aggregate  →  dense(b1, W2)  →  aggregate  →  dense(b2, W3)  →  aggregate  →  head,

  the head being  max(max(a + b3, 0)·Wp1 + bp1, 0)·Wp2 + bp2.

  The functions are written with the reference program's own shapes and dimension records, one StableHLO operation per
  node of the term, so that the reference's run is these functions by unfolding; nothing here is evaluated.
-/
import proofs.«117196_j8624294331203_1_alg».proof.ReferenceIdeal
import proofs.«117196_j8624294331203_1_alg».proof.Proof.Gen.ReferenceIdeal

noncomputable section

namespace Cert.Gcn

open Cert.ReferenceIdeal Cert.ReferenceIdeal.Gen Idealize.ShloMosaic Idealize.ShloMosaic.TcCoe Idealize.SL.Sem Idealize.ShloMosaic.StableHlo

variable {F : FTy → Type} [FloatOps F]

/-- The destination node of every edge: row 1 of the edge array, then the self loops 0 … N−1. -/
def dstList (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The source node of every edge: row 0 of the edge array, then the self loops. -/
def srcList (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- A list of node numbers as the column of scatter positions. -/
def column (v : (⟨S1700000, .i32⟩ : BufTy).Contents (Elt F)) : (⟨S1700000x1, .i32⟩ : BufTy).Contents (Elt F) :=
  broadcastInDim S1700000x1 ![0] bcast_S1700000_S1700000x1_0 v

/-- A list of node numbers as the column of gather positions: a negative number counts from the end (N is added). -/
def wrapped (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- Every node's degree: a one accumulated at the destination of every edge. -/
def degree (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (column d) (broadcastInDim S1700000 ![] bcast_S_S1700000 (constant S_ .f32 0x3F800000#32))

/-- Every node's weight: the inverse square root of its degree where that is positive, 0 elsewhere. -/
def nodeWeight (d : (⟨S1700000, .i32⟩ : BufTy).Contents (Elt F)) : (⟨S100000, .f32⟩ : BufTy).Contents (Elt F) :=
  select (cmpf (F := F) .ogt (degree d) (broadcastInDim S100000 ![] bcast_S_S100000 (constant S_ .f32 0x00000000#32))) (Host.rsqrt (degree d)) (broadcastInDim S100000 ![] bcast_S_S100000 (id (constant S_ .f32 0x00000000#32)))

/-- Every edge's weight, as a column: the product of the weights of its source and its destination. -/
def edgeWeight (s d : (⟨S1700000, .i32⟩ : BufTy).Contents (Elt F)) : (⟨S1700000x1, .f32⟩ : BufTy).Contents (Elt F) :=
  broadcastInDim S1700000x1 ![0] bcast_S1700000_S1700000x1_0 (mulf (Host.gather gather_S100000_S1700000x1_S1700000_n_0_n_n_0_1_1 (nodeWeight d) (wrapped s)) (Host.gather gather_S100000_S1700000x1_S1700000_n_0_n_n_0_1_1 (nodeWeight d) (wrapped d)))

/-- One aggregation: row n of the result is the sum over the edges arriving at n of the source row of `h` times the
    edge's weight. -/
def aggregate (s d : (⟨S1700000, .i32⟩ : BufTy).Contents (Elt F)) (w : (⟨S1700000x1, .f32⟩ : BufTy).Contents (Elt F))
    (h : (⟨S100000x64, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (column d) (mulf (Host.gather gather_S100000x64_S1700000x1_S1700000x64_1_0_n_n_0_1_164 h (wrapped s)) (broadcastInDim S1700000x64 ![0, 1] bcast_S1700000x1_S1700000x64_0_1 w))

/-- The first product, x·W1. -/
def firstProduct (x : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none x w

/-- A row of 64 biases added to every row of `a`, clamped below at 0. -/
def biased (a : (⟨S100000x64, .f32⟩ : BufTy).Contents (Elt F)) (b : (⟨S64, .f32⟩ : BufTy).Contents (Elt F)) :
    (⟨S100000x64, .f32⟩ : BufTy).Contents (Elt F) :=
  maximumf (addf a (broadcastInDim S100000x64 ![0, 1] bcast_S1x64_S100000x64_0_1 (broadcastInDim S1x64 ![1] bcast_S64_S1x64_1 b))) (broadcastInDim S100000x64 ![] bcast_S_S100000x64 (constant S_ .f32 0x00000000#32))

/-- A dense layer: max(a + b, 0)·W. -/
def dense (a : (⟨S100000x64, .f32⟩ : BufTy).Contents (Elt F)) (b : (⟨S64, .f32⟩ : BufTy).Contents (Elt F))
    (w : (⟨S64x64, .f32⟩ : BufTy).Contents (Elt F)) : (⟨S100000x64, .f32⟩ : BufTy).Contents (Elt F) :=
  Host.dotGeneral dot_S100000x64_S64x64_S100000x64_1_0_0_1_n_n none (biased a b) w

/-- The hidden layer of the head: max(max(a + b3, 0)·Wp1 + bp1, 0). -/
def hidden (a : (⟨S100000x64, .f32⟩ : BufTy).Contents (Elt F)) (b3 : (⟨S64, .f32⟩ : BufTy).Contents (Elt F))
    (wp1 : (⟨S64x32, .f32⟩ : BufTy).Contents (Elt F)) (bp1 : (⟨S32, .f32⟩ : BufTy).Contents (Elt F)) :
    (⟨S100000x32, .f32⟩ : BufTy).Contents (Elt F) :=
  maximumf (addf (Host.dotGeneral dot_S100000x64_S64x32_S100000x32_1_0_0_1_n_n none (biased a b3) wp1) (broadcastInDim S100000x32 ![0, 1] bcast_S1x32_S100000x32_0_1 (broadcastInDim S1x32 ![1] bcast_S32_S1x32_1 bp1))) (broadcastInDim S100000x32 ![] bcast_S_S100000x32 (constant S_ .f32 0x00000000#32))

/-- The head: hidden·Wp2 + bp2, one number per node. -/
def head (a : (⟨S100000x64, .f32⟩ : BufTy).Contents (Elt F)) (b3 : (⟨S64, .f32⟩ : BufTy).Contents (Elt F))
    (wp1 : (⟨S64x32, .f32⟩ : BufTy).Contents (Elt F)) (bp1 : (⟨S32, .f32⟩ : BufTy).Contents (Elt F))
    (wp2 : (⟨S32x1, .f32⟩ : BufTy).Contents (Elt F)) (bp2 : (⟨S1, .f32⟩ : BufTy).Contents (Elt F)) :
    (⟨S100000x1, .f32⟩ : BufTy).Contents (Elt F) :=
  addf (Host.dotGeneral dot_S100000x32_S32x1_S100000x1_1_0_0_1_n_n none (hidden a b3 wp1 bp1) wp2) (broadcastInDim S100000x1 ![0, 1] bcast_S1x1_S100000x1_0_1 (broadcastInDim S1x1 ![1] bcast_S1_S1x1_1 bp2))

/-- The network, from the edge lists and weights already formed. -/
def layers (s d : (⟨S1700000, .i32⟩ : BufTy).Contents (Elt F)) (w : (⟨S1700000x1, .f32⟩ : BufTy).Contents (Elt F))
    (x : (⟨S100000x128, .f32⟩ : BufTy).Contents (Elt F)) (w1 : (⟨S128x64, .f32⟩ : BufTy).Contents (Elt F))
    (b1 : (⟨S64, .f32⟩ : BufTy).Contents (Elt F)) (w2 : (⟨S64x64, .f32⟩ : BufTy).Contents (Elt F))
    (b2 : (⟨S64, .f32⟩ : BufTy).Contents (Elt F)) (w3 : (⟨S64x64, .f32⟩ : BufTy).Contents (Elt F))
    (b3 : (⟨S64, .f32⟩ : BufTy).Contents (Elt F)) (wp1 : (⟨S64x32, .f32⟩ : BufTy).Contents (Elt F))
    (bp1 : (⟨S32, .f32⟩ : BufTy).Contents (Elt F)) (wp2 : (⟨S32x1, .f32⟩ : BufTy).Contents (Elt F))
    (bp2 : (⟨S1, .f32⟩ : BufTy).Contents (Elt F)) : (⟨S100000x1, .f32⟩ : BufTy).Contents (Elt F) :=
  head (aggregate s d w (dense (aggregate s d w (dense (aggregate s d w (firstProduct x w1)) b1 w2)) b2 w3)) b3 wp1 bp1 wp2 bp2

/-- The network as a function of the argument arrays. -/
def network (x : (⟨S100000x128, .f32⟩ : BufTy).Contents (Elt F)) (ei : (⟨S2x1600000, .i32⟩ : BufTy).Contents (Elt F))
    (w1 : (⟨S128x64, .f32⟩ : BufTy).Contents (Elt F))
    (b1 : (⟨S64, .f32⟩ : BufTy).Contents (Elt F)) (w2 : (⟨S64x64, .f32⟩ : BufTy).Contents (Elt F))
    (b2 : (⟨S64, .f32⟩ : BufTy).Contents (Elt F)) (w3 : (⟨S64x64, .f32⟩ : BufTy).Contents (Elt F))
    (b3 : (⟨S64, .f32⟩ : BufTy).Contents (Elt F)) (wp1 : (⟨S64x32, .f32⟩ : BufTy).Contents (Elt F))
    (bp1 : (⟨S32, .f32⟩ : BufTy).Contents (Elt F)) (wp2 : (⟨S32x1, .f32⟩ : BufTy).Contents (Elt F))
    (bp2 : (⟨S1, .f32⟩ : BufTy).Contents (Elt F)) : (⟨S100000x1, .f32⟩ : BufTy).Contents (Elt F) :=
  layers (srcList ei) (dstList ei) (edgeWeight (srcList ei) (dstList ei)) x w1 b1 w2 b2 w3 b3 wp1 bp1 wp2 bp2

end Cert.Gcn

end
-- ==== Proof.Host.lean ====
/-
  The host operations of the idealized kernel's program, a stretch at a time, from ANY buffer contents `W`.

  Before the first region three stretches form the edge lists (source and destination node of each of the 1700000 edges,
  self loops included) and the edge weights. After each of the first three regions one stretch aggregates that region's
  output over the edges and stands the next bias vector up as a row. Each result is stated as the network's own stage
  function (Proof/Spec.lean) of the buffers the stretch reads; a buffer no operation of a stretch writes keeps its contents.
-/
import proofs.«117196_j8624294331203_1_alg».proof.Proof.Gen.KernelIdeal.Launch
import proofs.«117196_j8624294331203_1_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! ## What each stretch leaves alone -/

/-- The buffers the first stretch's operations write, one per operation. -/
abbrev written0 : List (Ref sig .tc) := [main_v0, main_v1, main_v2, main_v3, main_v4, main_v5, main_v6, main_cst, main_v7, main_cst_0, main_v8, main_v9, main_v10, main_cst_1, main_v11, main_v12, main_v13, main_cst_2]
theorem writes0 : (hostOps0 : List (HloOp τ sig (Elt F))).Forall fun op => op.writes ⊆ (written0.map (Proc.devRef (τ := τ) .tc)).toFinset := by
  simp only [hostOps0, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer none of them writes keeps its contents. -/
theorem keeps0 (W : Valuation τ sig (Elt F)) (r : Ref sig .tc) (h : r ∉ written0) :
    StableHlo.after hostOps0 W (Proc.devRef .tc r) = W (Proc.devRef .tc r) :=
  StableHlo.after_of_writes_sub hostOps0 W writes0 h

/-- The buffers the second stretch's operations (the select between the inverse root and 0) write, one per operation. -/
abbrev written0a : List (Ref sig .tc) := [main_call0_v0, main_call0_v1, main_v14]
theorem writes0a : (hostOps0_1 : List (HloOp τ sig (Elt F))).Forall fun op => op.writes ⊆ (written0a.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer none of them writes keeps its contents. -/
theorem keeps0a (W : Valuation τ sig (Elt F)) (r : Ref sig .tc) (h : r ∉ written0a) :
    StableHlo.after hostOps0_1 W (Proc.devRef .tc r) = W (Proc.devRef .tc r) :=
  StableHlo.after_of_writes_sub hostOps0_1 W writes0a h

/-- The buffers the third stretch's operations write, one per operation. -/
abbrev written0b : List (Ref sig .tc) := [main_c, main_v15, main_v16, main_c_3, main_v17, main_v18, main_v19, main_v20, main_v21, main_c_4, main_v22, main_v23, main_c_5, main_v24, main_v25, main_v26, main_v27, main_v28, main_v29, main_v30]
theorem writes0b : (hostOps0_2 : List (HloOp τ sig (Elt F))).Forall fun op => op.writes ⊆ (written0b.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer none of them writes keeps its contents. -/
theorem keeps0b (W : Valuation τ sig (Elt F)) (r : Ref sig .tc) (h : r ∉ written0b) :
    StableHlo.after hostOps0_2 W (Proc.devRef .tc r) = W (Proc.devRef .tc r) :=
  StableHlo.after_of_writes_sub hostOps0_2 W writes0b h

/-- The buffers the operations between regions 0 and 1 write, one per operation. -/
abbrev written1 : List (Ref sig .tc) := [main_c_6, main_v32, main_v33, main_c_7, main_v34, main_v35, main_v36, main_v37, main_v38, main_v39, main_v40, main_cst_8, main_v41, main_v42, main_v43, main_v44]
theorem writes1 : (hostOps1 : List (HloOp τ sig (Elt F))).Forall fun op => op.writes ⊆ (written1.map (Proc.devRef (τ := τ) .tc)).toFinset := by
  simp only [hostOps1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer none of them writes keeps its contents. -/
theorem keeps1 (W : Valuation τ sig (Elt F)) (r : Ref sig .tc) (h : r ∉ written1) :
    StableHlo.after hostOps1 W (Proc.devRef .tc r) = W (Proc.devRef .tc r) :=
  StableHlo.after_of_writes_sub hostOps1 W writes1 h

/-- The buffers the operations between regions 1 and 2 write, one per operation. -/
abbrev written2 : List (Ref sig .tc) := [main_c_9, main_v46, main_v47, main_c_10, main_v48, main_v49, main_v50, main_v51, main_v52, main_v53, main_v54, main_cst_11, main_v55, main_v56, main_v57, main_v58]
theorem writes2 : (hostOps2 : List (HloOp τ sig (Elt F))).Forall fun op => op.writes ⊆ (written2.map (Proc.devRef (τ := τ) .tc)).toFinset := by
  simp only [hostOps2, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer none of them writes keeps its contents. -/
theorem keeps2 (W : Valuation τ sig (Elt F)) (r : Ref sig .tc) (h : r ∉ written2) :
    StableHlo.after hostOps2 W (Proc.devRef .tc r) = W (Proc.devRef .tc r) :=
  StableHlo.after_of_writes_sub hostOps2 W writes2 h

/-- The buffers the operations between regions 2 and 3 write, one per operation. -/
abbrev written3 : List (Ref sig .tc) := [main_c_12, main_v60, main_v61, main_c_13, main_v62, main_v63, main_v64, main_v65, main_v66, main_v67, main_v68, main_cst_14, main_v69, main_v70, main_v71, main_v72, main_v73, main_v74]
theorem writes3 : (hostOps3 : List (HloOp τ sig (Elt F))).Forall fun op => op.writes ⊆ (written3.map (Proc.devRef (τ := τ) .tc)).toFinset := by
  simp only [hostOps3, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer none of them writes keeps its contents. -/
theorem keeps3 (W : Valuation τ sig (Elt F)) (r : Ref sig .tc) (h : r ∉ written3) :
    StableHlo.after hostOps3 W (Proc.devRef .tc r) = W (Proc.devRef .tc r) :=
  StableHlo.after_of_writes_sub hostOps3 W writes3 h

/-! ## Before the first region: the edge lists and the edge weights -/

set_option maxHeartbeats 16000000 in
/-- The source list: row 0 of the edge array followed by the self loops. -/
theorem pre_src (W : Valuation τ sig (Elt F)) :
    StableHlo.after hostOps0_2 (StableHlo.after hostOps0_1 (StableHlo.after hostOps0 W)) (Proc.devRef .tc main_v3)
      = Cert.Gcn.srcList (F := F) (W (Proc.devRef .tc main_arg1)) := by
  dsimp only [hostOps0, hostOps0_1, hostOps0_2]
  after_results_simp
  rfl

set_option maxHeartbeats 16000000 in
/-- The destination list: row 1 of the edge array followed by the self loops. -/
theorem pre_dst (W : Valuation τ sig (Elt F)) :
    StableHlo.after hostOps0_2 (StableHlo.after hostOps0_1 (StableHlo.after hostOps0 W)) (Proc.devRef .tc main_v6)
      = Cert.Gcn.dstList (F := F) (W (Proc.devRef .tc main_arg1)) := by
  dsimp only [hostOps0, hostOps0_1, hostOps0_2]
  after_results_simp
  rfl

set_option maxHeartbeats 16000000 in
/-- The edge weights, as a column: degree by accumulation, inverse root where positive, the two ends' weights multiplied. -/
theorem pre_weight (W : Valuation τ sig (Elt F)) :
    StableHlo.after hostOps0_2 (StableHlo.after hostOps0_1 (StableHlo.after hostOps0 W)) (Proc.devRef .tc main_v30)
      = Cert.Gcn.edgeWeight (F := F) (Cert.Gcn.srcList (W (Proc.devRef .tc main_arg1))) (Cert.Gcn.dstList (W (Proc.devRef .tc main_arg1))) := by
  dsimp only [hostOps0, hostOps0_1, hostOps0_2]
  after_results_simp
  rfl

/-- The three stretches together leave alone what none of them writes. -/
theorem pre_keeps (W : Valuation τ sig (Elt F)) (r : Ref sig .tc) (h0 : r ∉ written0) (h1 : r ∉ written0a) (h2 : r ∉ written0b) :
    StableHlo.after hostOps0_2 (StableHlo.after hostOps0_1 (StableHlo.after hostOps0 W)) (Proc.devRef .tc r) = W (Proc.devRef .tc r) :=
  (keeps0b _ r h2).trans ((keeps0a _ r h1).trans (keeps0 W r h0))

/-! ## Between the regions: one aggregation, and the next bias as a row -/

set_option maxHeartbeats 8000000 in
/-- The stretch after region 0: its output `h` is aggregated over the edges (gather the source rows, weigh, accumulate at
    the destinations). -/
theorem agg1 (W : Valuation τ sig (Elt F)) :
    StableHlo.after hostOps1 W (Proc.devRef .tc main_v43)
      = Cert.Gcn.aggregate (F := F) (W (Proc.devRef .tc main_v3)) (W (Proc.devRef .tc main_v6)) (W (Proc.devRef .tc main_v30)) (W (Proc.devRef .tc main_v31)) := by
  dsimp only [hostOps1]
  after_results_simp
  rfl

set_option maxHeartbeats 8000000 in
/-- The first bias vector stood up as a row [1, 64]. -/
theorem row1 (W : Valuation τ sig (Elt F)) :
    StableHlo.after hostOps1 W (Proc.devRef .tc main_v44) = shapeCast S1x64 (W (Proc.devRef .tc main_arg4)) shapeCasts_S64_S1x64 := by
  dsimp only [hostOps1]
  after_results_simp
  rfl

set_option maxHeartbeats 8000000 in
/-- The stretch after region 1: its output `h` is aggregated over the edges (gather the source rows, weigh, accumulate at
    the destinations). -/
theorem agg2 (W : Valuation τ sig (Elt F)) :
    StableHlo.after hostOps2 W (Proc.devRef .tc main_v57)
      = Cert.Gcn.aggregate (F := F) (W (Proc.devRef .tc main_v3)) (W (Proc.devRef .tc main_v6)) (W (Proc.devRef .tc main_v30)) (W (Proc.devRef .tc main_v45)) := by
  dsimp only [hostOps2]
  after_results_simp
  rfl

set_option maxHeartbeats 8000000 in
/-- The second bias vector as a row. -/
theorem row2 (W : Valuation τ sig (Elt F)) :
    StableHlo.after hostOps2 W (Proc.devRef .tc main_v58) = shapeCast S1x64 (W (Proc.devRef .tc main_arg6)) shapeCasts_S64_S1x64 := by
  dsimp only [hostOps2]
  after_results_simp
  rfl

set_option maxHeartbeats 8000000 in
/-- The stretch after region 2: its output `h` is aggregated over the edges (gather the source rows, weigh, accumulate at
    the destinations). -/
theorem agg3 (W : Valuation τ sig (Elt F)) :
    StableHlo.after hostOps3 W (Proc.devRef .tc main_v71)
      = Cert.Gcn.aggregate (F := F) (W (Proc.devRef .tc main_v3)) (W (Proc.devRef .tc main_v6)) (W (Proc.devRef .tc main_v30)) (W (Proc.devRef .tc main_v59)) := by
  dsimp only [hostOps3]
  after_results_simp
  rfl

set_option maxHeartbeats 8000000 in
/-- The third bias vector as a row. -/
theorem row3 (W : Valuation τ sig (Elt F)) :
    StableHlo.after hostOps3 W (Proc.devRef .tc main_v72) = shapeCast S1x64 (W (Proc.devRef .tc main_arg8)) shapeCasts_S64_S1x64 := by
  dsimp only [hostOps3]
  after_results_simp
  rfl

set_option maxHeartbeats 8000000 in
/-- The head's hidden bias vector as a row [1, 32]. -/
theorem row3h (W : Valuation τ sig (Elt F)) :
    StableHlo.after hostOps3 W (Proc.devRef .tc main_v73) = shapeCast S1x32 (W (Proc.devRef .tc main_arg10)) shapeCasts_S32_S1x32 := by
  dsimp only [hostOps3]
  after_results_simp
  rfl

set_option maxHeartbeats 8000000 in
/-- The head's output bias as a [1, 1] array. -/
theorem row3o (W : Valuation τ sig (Elt F)) :
    StableHlo.after hostOps3 W (Proc.devRef .tc main_v74) = shapeCast S1x1 (W (Proc.devRef .tc main_arg12)) shapeCasts_S1_S1x1 := by
  dsimp only [hostOps3]
  after_results_simp
  rfl

end Cert.KernelIdeal.Hand

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.Body.lean ====
/-
  The four kernel bodies' stored values, read at an index, over the extended reals.

  A change of float format is the identity there, and a product into a zero accumulator is the plain sum over the
  contracted axis. So with Z the number the f32 word 0 denotes:
    · the first body stores, at (p, q),  Σ_k x(p,k)·w(k,q);
    · the two middle bodies store  Σ_k max(a(p,k) + b(0,k), Z)·w(k,q)  — the bias is a [1, 64] row spread over the block's rows;
    · the last body stores, at (p, 0),
        Σ_j max(Σ_k max(a(p,k) + b3(0,k), Z)·wp1(k,j) + bp1(0,j), Z)·wp2(j,0) + bp2(0,0).
-/
import proofs.«117196_j8624294331203_1_alg».proof.Proof.Gen.KernelIdeal.Skeleton
import proofs.«117196_j8624294331203_1_alg».proof.Proof.LibPlainDot
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

/-- The first body: a [10000, 128] block of x times W1. -/
theorem pay0_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  exact Cert.Lib.matmul_zero_apply (M := 10000) (K := 128) (N := 64) dot_S10000x128_S128x64_S10000x64_1_0_0_1_n_n_wf none _ _ p q

/-- The second body: the block plus the bias row, clamped below at Z, times the weight. -/
theorem pay1_apply (x0 : Vec Ideal S10000x64 .f32) (x1 : Vec Ideal S1x64 .f32) (x2 : Vec Ideal S64x64 .f32) (p : Fin 10000) (q : Fin 64) :
    k1_pay1 (F := Ideal) x0 x1 x2 (ix2 p q)
      = ∑ k : Fin 64, max (x0 (ix2 p k) + x1 (ix2 (0 : Fin 1) k)) (Ideal.ofBits .f32 0x00000000#32) * x2 (ix2 k q) := by
  unfold k1_pay1
  refine (Cert.Lib.matmul_zero_apply (M := 10000) (K := 64) (N := 64) dot_S10000x64_S64x64_S10000x64_1_0_0_1_n_n_wf none _ _ p q).trans ?_
  refine Finset.sum_congr rfl fun k _ => ?_
  simp only [truncf_apply, maximumf_apply, addf_apply, broadcast_apply, shapeCast_self]
  rw [broadcastTo_1b_ab_apply]
  rfl

/-- The third body is the second's text again. -/
theorem pay2_apply (x0 : Vec Ideal S10000x64 .f32) (x1 : Vec Ideal S1x64 .f32) (x2 : Vec Ideal S64x64 .f32) (p : Fin 10000) (q : Fin 64) :
    k2_pay1 (F := Ideal) x0 x1 x2 (ix2 p q)
      = ∑ k : Fin 64, max (x0 (ix2 p k) + x1 (ix2 (0 : Fin 1) k)) (Ideal.ofBits .f32 0x00000000#32) * x2 (ix2 k q) :=
  pay1_apply x0 x1 x2 p q

/-- The last body: bias and clamp, the hidden product, bias and clamp again, the output product, the output bias. -/
theorem pay3_apply (x0 : Vec Ideal S10000x64 .f32) (x1 : Vec Ideal S1x64 .f32) (x2 : Vec Ideal S64x32 .f32)
    (x3 : Vec Ideal S1x32 .f32) (x4 : Vec Ideal S32x1 .f32) (x5 : Vec Ideal S1x1 .f32) (p : Fin 10000) (u : Fin 1) :
    k3_pay1 (F := Ideal) x0 x1 x2 x3 x4 x5 (ix2 p u)
      = (∑ j : Fin 32, max ((∑ k : Fin 64, max (x0 (ix2 p k) + x1 (ix2 (0 : Fin 1) k)) (Ideal.ofBits .f32 0x00000000#32) * x2 (ix2 k j))
            + x3 (ix2 (0 : Fin 1) j)) (Ideal.ofBits .f32 0x00000000#32) * x4 (ix2 j u))
          + x5 (ix2 (0 : Fin 1) u) := by
  unfold k3_pay1
  simp only [addf_apply]
  refine congrArg₂ (· + ·) ?_ ?_
  · refine (Cert.Lib.matmul_zero_apply (M := 10000) (K := 32) (N := 1) dot_S10000x32_S32x1_S10000x1_1_0_0_1_n_n_wf none _ _ p u).trans ?_
    refine Finset.sum_congr rfl fun j _ => ?_
    simp only [truncf_apply, maximumf_apply, addf_apply, broadcast_apply, shapeCast_self]
    rw [broadcastTo_1b_ab_apply]
    refine congrArg₂ (· * ·) (congrArg₂ max (congrArg₂ (· + ·) ?_ rfl) rfl) rfl
    refine (Cert.Lib.matmul_zero_apply (M := 10000) (K := 64) (N := 32) dot_S10000x64_S64x32_S10000x32_1_0_0_1_n_n_wf none _ _ p j).trans ?_
    refine Finset.sum_congr rfl fun k _ => ?_
    simp only [truncf_apply, maximumf_apply, addf_apply, broadcast_apply, shapeCast_self]
    rw [broadcastTo_1b_ab_apply]
    rfl
  · simp only [shapeCast_self]
    exact broadcastTo_1b_ab_apply _ _ p u

end Cert.KernelIdeal.Hand

end
-- ==== Proof.SpecAt.lean ====
/-
  The network's dense stages read at an index, over the extended reals: each host matrix product is the plain sum over
  the contracted axis, a bias vector spread as a row over all rows reads its own entry, and the clamp's constant is the
  number Z the f32 word 0 denotes. The same sums the kernel bodies store (Proof/Body.lean).
-/
import proofs.«117196_j8624294331203_1_alg».proof.Proof.Spec
import proofs.«117196_j8624294331203_1_alg».proof.Proof.LibPlainDot
import Idealize.ShloMosaic.Lib.ValueIdx
import Idealize.ShloMosaic.Lib.Pipeline.Value

set_option maxRecDepth 16384

noncomputable section

namespace Cert.Gcn

open Cert.ReferenceIdeal Cert.ReferenceIdeal.Gen
open Idealize.ShloMosaic Idealize.ShloMosaic.ValueIdx

/-- x·W1 at (r, q). -/
theorem firstProduct_apply (x : (⟨S100000x128, .f32⟩ : BufTy).Contents (Elt Ideal)) (w : (⟨S128x64, .f32⟩ : BufTy).Contents (Elt Ideal)) (r : Fin 100000) (q : Fin 64) :
    firstProduct (F := Ideal) x w (ix2 r q) = ∑ k : Fin 128, x (ix2 r k) * w (ix2 k q) := by
  unfold firstProduct
  exact Cert.Lib.dotGeneral_plain_apply (M := 100000) (K := 128) (N := 64) dot_S100000x128_S128x64_S100000x64_1_0_0_1_n_n_wf none _ x w r q

/-- A vector of 64 biases stood up as a row and spread over the 100000 rows reads, at (r, k), its entry k. -/
theorem biasRow64_apply (b : (⟨S64, .f32⟩ : BufTy).Contents (Elt Ideal)) (r : Fin 100000) (k : Fin 64) :
    broadcastInDim S100000x64 ![0, 1] bcast_S1x64_S100000x64_0_1 (broadcastInDim S1x64 ![1] bcast_S64_S1x64_1 b) (ix2 r k) = b (ix1 k) := by
  rw [broadcastInDim_apply _ bcast_S1x64_S100000x64_0_1 _ (ix2 r k) (ix2 (0 : Fin 1) k) (fun a => match a with
      | ⟨0, _⟩ => by show 0 = if (1 : Nat) = 1 then 0 else r.val; rw [if_pos rfl]
      | ⟨1, _⟩ => by show k.val = if (64 : Nat) = 1 then 0 else k.val; rw [if_neg (by decide)]),
    broadcastInDim_apply _ bcast_S64_S1x64_1 b (ix2 (0 : Fin 1) k) (ix1 k) (fun a => match a with
      | ⟨0, _⟩ => by show k.val = if (64 : Nat) = 1 then 0 else k.val; rw [if_neg (by decide)])]

/-- The same for the 32 hidden biases. -/
theorem biasRow32_apply (b : (⟨S32, .f32⟩ : BufTy).Contents (Elt Ideal)) (r : Fin 100000) (k : Fin 32) :
    broadcastInDim S100000x32 ![0, 1] bcast_S1x32_S100000x32_0_1 (broadcastInDim S1x32 ![1] bcast_S32_S1x32_1 b) (ix2 r k) = b (ix1 k) := by
  rw [broadcastInDim_apply _ bcast_S1x32_S100000x32_0_1 _ (ix2 r k) (ix2 (0 : Fin 1) k) (fun a => match a with
      | ⟨0, _⟩ => by show 0 = if (1 : Nat) = 1 then 0 else r.val; rw [if_pos rfl]
      | ⟨1, _⟩ => by show k.val = if (32 : Nat) = 1 then 0 else k.val; rw [if_neg (by decide)]),
    broadcastInDim_apply _ bcast_S32_S1x32_1 b (ix2 (0 : Fin 1) k) (ix1 k) (fun a => match a with
      | ⟨0, _⟩ => by show k.val = if (32 : Nat) = 1 then 0 else k.val; rw [if_neg (by decide)])]

/-- The one output bias, spread over the 100000 rows of one column. -/
theorem biasRow1_apply (b : (⟨S1, .f32⟩ : BufTy).Contents (Elt Ideal)) (r : Fin 100000) (u : Fin 1) :
    broadcastInDim S100000x1 ![0, 1] bcast_S1x1_S100000x1_0_1 (broadcastInDim S1x1 ![1] bcast_S1_S1x1_1 b) (ix2 r u) = b (ix1 (0 : Fin 1)) := by
  rw [broadcastInDim_apply _ bcast_S1x1_S100000x1_0_1 _ (ix2 r u) (ix2 (0 : Fin 1) (0 : Fin 1)) (fun a => match a with
      | ⟨0, _⟩ => by show 0 = if (1 : Nat) = 1 then 0 else r.val; rw [if_pos rfl]
      | ⟨1, _⟩ => by show 0 = if (1 : Nat) = 1 then 0 else u.val; rw [if_pos rfl]),
    broadcastInDim_apply _ bcast_S1_S1x1_1 b (ix2 (0 : Fin 1) (0 : Fin 1)) (ix1 (0 : Fin 1)) (fun a => match a with
      | ⟨0, _⟩ => by show 0 = if (1 : Nat) = 1 then 0 else 0; rw [if_pos rfl])]

/-- A row plus its bias, clamped below at Z. -/
theorem biased_apply (a : (⟨S100000x64, .f32⟩ : BufTy).Contents (Elt Ideal)) (b : (⟨S64, .f32⟩ : BufTy).Contents (Elt Ideal)) (r : Fin 100000) (k : Fin 64) :
    biased (F := Ideal) a b (ix2 r k) = max (a (ix2 r k) + b (ix1 k)) (Ideal.ofBits .f32 0x00000000#32) := by
  unfold biased
  simp only [maximumf_apply, addf_apply]
  rw [biasRow64_apply]
  rfl

/-- A dense layer at (r, q). -/
theorem dense_apply (a : (⟨S100000x64, .f32⟩ : BufTy).Contents (Elt Ideal)) (b : (⟨S64, .f32⟩ : BufTy).Contents (Elt Ideal)) (w : (⟨S64x64, .f32⟩ : BufTy).Contents (Elt Ideal)) (r : Fin 100000) (q : Fin 64) :
    dense (F := Ideal) a b w (ix2 r q)
      = ∑ k : Fin 64, max (a (ix2 r k) + b (ix1 k)) (Ideal.ofBits .f32 0x00000000#32) * w (ix2 k q) := by
  unfold dense
  refine (Cert.Lib.dotGeneral_plain_apply (M := 100000) (K := 64) (N := 64) dot_S100000x64_S64x64_S100000x64_1_0_0_1_n_n_wf none _ (biased a b) w r q).trans ?_
  exact Finset.sum_congr rfl fun k _ => congrArg₂ (· * ·) (biased_apply a b r k) rfl

/-- The head's hidden layer at (r, j). -/
theorem hidden_apply (a : (⟨S100000x64, .f32⟩ : BufTy).Contents (Elt Ideal)) (b3 : (⟨S64, .f32⟩ : BufTy).Contents (Elt Ideal)) (wp1 : (⟨S64x32, .f32⟩ : BufTy).Contents (Elt Ideal)) (bp1 : (⟨S32, .f32⟩ : BufTy).Contents (Elt Ideal)) (r : Fin 100000) (j : Fin 32) :
    hidden (F := Ideal) a b3 wp1 bp1 (ix2 r j)
      = max ((∑ k : Fin 64, max (a (ix2 r k) + b3 (ix1 k)) (Ideal.ofBits .f32 0x00000000#32) * wp1 (ix2 k j)) + bp1 (ix1 j))
          (Ideal.ofBits .f32 0x00000000#32) := by
  unfold hidden
  simp only [maximumf_apply, addf_apply]
  rw [biasRow32_apply]
  refine congrArg₂ max (congrArg₂ (· + ·) ?_ rfl) rfl
  refine (Cert.Lib.dotGeneral_plain_apply (M := 100000) (K := 64) (N := 32) dot_S100000x64_S64x32_S100000x32_1_0_0_1_n_n_wf none _ (biased a b3) wp1 r j).trans ?_
  exact Finset.sum_congr rfl fun k _ => congrArg₂ (· * ·) (biased_apply a b3 r k) rfl

/-- The head at (r, 0). -/
theorem head_apply (a : (⟨S100000x64, .f32⟩ : BufTy).Contents (Elt Ideal)) (b3 : (⟨S64, .f32⟩ : BufTy).Contents (Elt Ideal)) (wp1 : (⟨S64x32, .f32⟩ : BufTy).Contents (Elt Ideal)) (bp1 : (⟨S32, .f32⟩ : BufTy).Contents (Elt Ideal))
    (wp2 : (⟨S32x1, .f32⟩ : BufTy).Contents (Elt Ideal)) (bp2 : (⟨S1, .f32⟩ : BufTy).Contents (Elt Ideal)) (r : Fin 100000) (u : Fin 1) :
    head (F := Ideal) a b3 wp1 bp1 wp2 bp2 (ix2 r u)
      = (∑ j : Fin 32, max ((∑ k : Fin 64, max (a (ix2 r k) + b3 (ix1 k)) (Ideal.ofBits .f32 0x00000000#32) * wp1 (ix2 k j)) + bp1 (ix1 j))
            (Ideal.ofBits .f32 0x00000000#32) * wp2 (ix2 j u))
          + bp2 (ix1 (0 : Fin 1)) := by
  unfold head
  simp only [addf_apply]
  rw [biasRow1_apply]
  refine congrArg₂ (· + ·) ?_ rfl
  refine (Cert.Lib.dotGeneral_plain_apply (M := 100000) (K := 32) (N := 1) dot_S100000x32_S32x1_S100000x1_1_0_0_1_n_n_wf none _ (hidden a b3 wp1 bp1) wp2 r u).trans ?_
  exact Finset.sum_congr rfl fun j _ => congrArg₂ (· * ·) (hidden_apply a b3 wp1 bp1 r j) rfl

end Cert.Gcn

end
-- ==== Proof.Regions.lean ====
/-
  Each region's output array after its ten write-backs, as one function of the arrays the region found.

  A region runs its body at grid points t = 0 … 9. At point t the row-tiled input window holds rows 10000·t … 10000·t + 9999
  of its array, every other input window holds its whole (small) array, and the body's stored block is written back to rows
  10000·t … of the output array. Each stored entry is the stage function of the WHOLE arrays at its own row (the bodies'
  sums, Proof/Body.lean, against the stage functions' sums, Proof/SpecAt.lean), so every write-back is a block of one
  whole-array function; the ten blocks tile the 100000 rows, so the array ends holding that function.
  The contents `V` a region finds are a parameter throughout.
-/
import proofs.«117196_j8624294331203_1_alg».proof.Proof.Gen.KernelIdeal.Frame
import proofs.«117196_j8624294331203_1_alg».proof.Proof.Body
import proofs.«117196_j8624294331203_1_alg».proof.Proof.SpecAt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

theorem hz2 : (![0, 0] : Fin 2 → Nat) = fun _ => 0 := funext fun a => by fin_cases a <;> rfl

/-! ## One block of each region's output, over variables of the literal block types

`x0 …` are the blocks a grid point loads, `X …` the whole arrays; the hypotheses say which entries of the arrays the
blocks hold (block row `t` of a row-tiled array; the whole of a small array; a bias row holding a vector). The stored value
at `y` is then the stage function of the whole arrays at row 10000·t + y₀. -/

/-- Region 0: rows 10000·t … of x times W1. -/
theorem block0 (x0 : Vec Ideal S10000x128 .f32) (x1 : Vec Ideal S128x64 .f32)
    (X : Cert.ReferenceIdeal.S100000x128.Idx → EReal) (Wt : Cert.ReferenceIdeal.S128x64.Idx → EReal) (t : Nat)
    (h0 : ∀ (p : Fin 10000) (k : Fin 128) (i : Cert.ReferenceIdeal.S100000x128.Idx), (i 0).val = 10000 * t + p.val → (i 1).val = k.val → x0 (ix2 p k) = X i)
    (h1 : ∀ (k : Fin 128) (q : Fin 64), x1 (ix2 k q) = Wt (ix2 k q))
    (y : S10000x64.Idx) (i : Cert.ReferenceIdeal.S100000x64.Idx) (hi0 : (i 0).val = 10000 * t + (y 0).val) (hi1 : (i 1).val = (y 1).val) :
    k0_pay1 (F := Ideal) x0 x1 y = Cert.Gcn.firstProduct (F := Ideal) X Wt i := by
  obtain ⟨p, q, rfl⟩ : ∃ (p : Fin 10000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hq : q' = q := Fin.ext hi1
  subst hq
  rw [pay0_apply, Cert.Gcn.firstProduct_apply]
  exact Finset.sum_congr rfl fun k _ => congrArg₂ (· * ·) (h0 p k (ix2 r k) hi0 rfl) (h1 k q')

/-- Region 1: rows 10000·t … of a dense layer. -/
theorem block1 (x0 : Vec Ideal S10000x64 .f32) (x1 : Vec Ideal S1x64 .f32) (x2 : Vec Ideal S64x64 .f32)
    (A : Cert.ReferenceIdeal.S100000x64.Idx → EReal) (b : Cert.ReferenceIdeal.S64.Idx → EReal) (Wt : Cert.ReferenceIdeal.S64x64.Idx → EReal) (t : Nat)
    (h0 : ∀ (p : Fin 10000) (k : Fin 64) (i : Cert.ReferenceIdeal.S100000x64.Idx), (i 0).val = 10000 * t + p.val → (i 1).val = k.val → x0 (ix2 p k) = A i)
    (h1 : ∀ k : Fin 64, x1 (ix2 (0 : Fin 1) k) = b (ix1 k))
    (h2 : ∀ (k : Fin 64) (q : Fin 64), x2 (ix2 k q) = Wt (ix2 k q))
    (y : S10000x64.Idx) (i : Cert.ReferenceIdeal.S100000x64.Idx) (hi0 : (i 0).val = 10000 * t + (y 0).val) (hi1 : (i 1).val = (y 1).val) :
    k1_pay1 (F := Ideal) x0 x1 x2 y = Cert.Gcn.dense (F := Ideal) A b Wt i := by
  obtain ⟨p, q, rfl⟩ : ∃ (p : Fin 10000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hq : q' = q := Fin.ext hi1
  subst hq
  rw [pay1_apply, Cert.Gcn.dense_apply]
  refine Finset.sum_congr rfl fun k _ => ?_
  rw [h0 p k (ix2 r k) hi0 rfl, h1 k, h2 k q']

/-- Region 2: the same body again. -/
theorem block2 (x0 : Vec Ideal S10000x64 .f32) (x1 : Vec Ideal S1x64 .f32) (x2 : Vec Ideal S64x64 .f32)
    (A : Cert.ReferenceIdeal.S100000x64.Idx → EReal) (b : Cert.ReferenceIdeal.S64.Idx → EReal) (Wt : Cert.ReferenceIdeal.S64x64.Idx → EReal) (t : Nat)
    (h0 : ∀ (p : Fin 10000) (k : Fin 64) (i : Cert.ReferenceIdeal.S100000x64.Idx), (i 0).val = 10000 * t + p.val → (i 1).val = k.val → x0 (ix2 p k) = A i)
    (h1 : ∀ k : Fin 64, x1 (ix2 (0 : Fin 1) k) = b (ix1 k))
    (h2 : ∀ (k : Fin 64) (q : Fin 64), x2 (ix2 k q) = Wt (ix2 k q))
    (y : S10000x64.Idx) (i : Cert.ReferenceIdeal.S100000x64.Idx) (hi0 : (i 0).val = 10000 * t + (y 0).val) (hi1 : (i 1).val = (y 1).val) :
    k2_pay1 (F := Ideal) x0 x1 x2 y = Cert.Gcn.dense (F := Ideal) A b Wt i :=
  block1 x0 x1 x2 A b Wt t h0 h1 h2 y i hi0 hi1

/-- Region 3: rows 10000·t … of the head. -/
theorem block3 (x0 : Vec Ideal S10000x64 .f32) (x1 : Vec Ideal S1x64 .f32) (x2 : Vec Ideal S64x32 .f32)
    (x3 : Vec Ideal S1x32 .f32) (x4 : Vec Ideal S32x1 .f32) (x5 : Vec Ideal S1x1 .f32)
    (A : Cert.ReferenceIdeal.S100000x64.Idx → EReal) (b3 : Cert.ReferenceIdeal.S64.Idx → EReal) (Wp1 : Cert.ReferenceIdeal.S64x32.Idx → EReal)
    (bp1 : Cert.ReferenceIdeal.S32.Idx → EReal) (Wp2 : Cert.ReferenceIdeal.S32x1.Idx → EReal) (bp2 : Cert.ReferenceIdeal.S1.Idx → EReal) (t : Nat)
    (h0 : ∀ (p : Fin 10000) (k : Fin 64) (i : Cert.ReferenceIdeal.S100000x64.Idx), (i 0).val = 10000 * t + p.val → (i 1).val = k.val → x0 (ix2 p k) = A i)
    (h1 : ∀ k : Fin 64, x1 (ix2 (0 : Fin 1) k) = b3 (ix1 k))
    (h2 : ∀ (k : Fin 64) (j : Fin 32), x2 (ix2 k j) = Wp1 (ix2 k j))
    (h3 : ∀ j : Fin 32, x3 (ix2 (0 : Fin 1) j) = bp1 (ix1 j))
    (h4 : ∀ (j : Fin 32) (u : Fin 1), x4 (ix2 j u) = Wp2 (ix2 j u))
    (h5 : ∀ u : Fin 1, x5 (ix2 (0 : Fin 1) u) = bp2 (ix1 u))
    (y : S10000x1.Idx) (i : Cert.ReferenceIdeal.S100000x1.Idx) (hi0 : (i 0).val = 10000 * t + (y 0).val) (hi1 : (i 1).val = (y 1).val) :
    k3_pay1 (F := Ideal) x0 x1 x2 x3 x4 x5 y = Cert.Gcn.head (F := Ideal) A b3 Wp1 bp1 Wp2 bp2 i := by
  obtain ⟨p, u, rfl⟩ : ∃ (p : Fin 10000) (u : Fin 1), y = ix2 p u := ⟨y 0, y 1, eq_ix2 y⟩
  obtain ⟨r, u', rfl⟩ : ∃ (r : Fin 100000) (u' : Fin 1), i = ix2 r u' := ⟨i 0, i 1, eq_ix2 i⟩
  have hu : u' = u := Fin.ext hi1
  subst hu
  have hu0 : u' = (0 : Fin 1) := Subsingleton.elim _ _
  subst hu0
  rw [pay3_apply, Cert.Gcn.head_apply]
  refine congrArg₂ (· + ·) (Finset.sum_congr rfl fun j _ => ?_) (h5 0)
  rw [h4 j 0, h3 j]
  refine congrArg₂ (· * ·) (congrArg₂ max (congrArg₂ (· + ·) (Finset.sum_congr rfl fun k _ => ?_) rfl) rfl) rfl
  rw [h0 p k (ix2 r k) hi0 rfl, h1 k, h2 k j]

variable (V : (c : Dev nD) → (b : Ref sig .tc) → Buf (Elt Ideal) ((c : Thread nD τ).loc b))

/-! ## Region 0 -/

/-- Where each window's block sits at grid point `t`: the row-tiled windows at block row `t`, the others at the origin. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the first product x·W1 of the arrays the region found. -/
theorem flushed0 (c : Dev nD) (t : Fin cfg0.N) :
    (dat0 V c).flushed 2 t = ((cfg0.win 2).blk t).view.read (Elt Ideal) (Cert.Gcn.firstProduct (F := Ideal) (V c main_arg0) (V c main_arg3)) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S128x64) hz2]
  obtain ⟨e00, e01, e10, e11, eo0, eo1⟩ := idx0 t
  funext y
  show k0_pay1 (iblk0 V c 0 t) (iblk0 V c 1 t) y = (Cert.Gcn.firstProduct (F := Ideal) (V c main_arg0) (V c main_arg3)) (((cfg0.win 2).blk t).view.emb y)
  refine block0 _ _ (V c main_arg0) (V c main_arg3) t.val ?_ ?_ y _ ?_ ?_
  · intro p k i hi0 hi1
    show V c main_arg0 (((cfg0.win 0).blk t).view.emb (ix2 p k)) = V c main_arg0 i
    refine congrArg _ (funext fun a => Fin.ext ?_)
    match a with
    | ⟨0, _⟩ => show win0_0.index t (0 : Fin 2) * 10000 + 1 * p.val = (i 0).val; omega
    | ⟨1, _⟩ => show win0_0.index t (1 : Fin 2) * 128 + 1 * k.val = (i 1).val; omega
  · intro k q
    show V c main_arg3 (((cfg0.win 1).blk t).view.emb (ix2 k q)) = V c main_arg3 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega
  · show win0_2.index t (0 : Fin 2) * 10000 + 1 * (y 0).val = 10000 * t.val + (y 0).val; omega
  · show win0_2.index t (1 : Fin 2) * 64 + 1 * (y 1).val = (y 1).val; omega

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- The ten blocks of 10000 rows tile the 100000 rows: row r is in block r / 10000. -/
theorem cover0 (i : S100000x64.Idx) : ∃ t : Fin cfg0.N, (cfg0.win 2).flush t = true ∧ i ∈ ((cfg0.win 2).blk t).view.set := by
  have hN : cfg0.N = 10 := N_0
  have hi0 : (i 0).val < 100000 := (i 0).isLt
  have hi1 : (i 1).val < 64 := (i 1).isLt
  refine ⟨⟨(i 0).val / 10000, by rw [hN]; omega⟩, flush0_2 _, ?_⟩
  obtain ⟨e00, e01, e10, e11, eo0, eo1⟩ := idx0 ⟨(i 0).val / 10000, by rw [hN]; omega⟩
  rw [mem_blk0]
  intro a
  match a with
  | ⟨0, _⟩ => show win0_2.index _ (0 : Fin 2) * 10000 ≤ (i 0).val ∧ (i 0).val < win0_2.index _ (0 : Fin 2) * 10000 + 10000; rw [eo0]; show (i 0).val / 10000 * 10000 ≤ (i 0).val ∧ (i 0).val < (i 0).val / 10000 * 10000 + 10000; omega
  | ⟨1, _⟩ => show win0_2.index _ (1 : Fin 2) * 64 ≤ (i 1).val ∧ (i 1).val < win0_2.index _ (1 : Fin 2) * 64 + 64; rw [eo1]; omega

/-- Region 0's output array after its ten write-backs is the first product x·W1 of the arrays the region found. -/
theorem region0_array (c : Dev nD) :
    (dat0 V c).arrAt 2 cfg0.N = Cert.Gcn.firstProduct (F := Ideal) (V c main_arg0) (V c main_arg3) :=
  (dat0 V c).arrAt_eq_of_cover 2 _ (fun t _ => flushed0 V c t) (cover0)

/-! ## Region 1 -/

/-- Where each window's block sits at grid point `t`: the row-tiled windows at block row `t`, the others at the origin. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What point `t` writes back is block `t` of the dense layer of the aggregate the region found, when its bias row is the vector `b` stood up. -/
theorem flushed1 (c : Dev nD) (b : (⟨S64, .f32⟩ : BufTy).Contents (Elt Ideal)) (hb : V c main_v44 = shapeCast S1x64 b shapeCasts_S64_S1x64) (t : Fin cfg1.N) :
    (dat1 V c).flushed 3 t = ((cfg1.win 3).blk t).view.read (Elt Ideal) (Cert.Gcn.dense (F := Ideal) (V c main_v43) b (V c main_arg5)) := by
  show (cfg1.win 3).cut (grid1.coords t) ((dat1 V c).after 3 t) = _
  rw [after1_3]
  unfold out1_3
  rw [View.canon_unit_zero hz2]
  simp only [View.ld_unit_zero (S := S10000x64) hz2, View.ld_unit_zero (S := S1x64) hz2, View.ld_unit_zero (S := S64x64) hz2]
  obtain ⟨e00, e01, e10, e11, e20, e21, eo0, eo1⟩ := idx1 t
  funext y
  show k1_pay1 (iblk1 V c 0 t) (iblk1 V c 1 t) (iblk1 V c 2 t) y = (Cert.Gcn.dense (F := Ideal) (V c main_v43) b (V c main_arg5)) (((cfg1.win 3).blk t).view.emb y)
  refine block1 _ _ _ (V c main_v43) b (V c main_arg5) t.val ?_ ?_ ?_ y _ ?_ ?_
  · intro p k i hi0 hi1
    show V c main_v43 (((cfg1.win 0).blk t).view.emb (ix2 p k)) = V c main_v43 i
    refine congrArg _ (funext fun a => Fin.ext ?_)
    match a with
    | ⟨0, _⟩ => show win1_0.index t (0 : Fin 2) * 10000 + 1 * p.val = (i 0).val; omega
    | ⟨1, _⟩ => show win1_0.index t (1 : Fin 2) * 64 + 1 * k.val = (i 1).val; omega
  · intro k
    have e : ((cfg1.win 1).blk t).view.emb (ix2 (0 : Fin 1) k) = ix2 (0 : Fin 1) k := funext fun a => Fin.ext (by
      match a with
      | ⟨0, _⟩ => show win1_1.index t (0 : Fin 2) * 1 + 1 * 0 = 0; omega
      | ⟨1, _⟩ => show win1_1.index t (1 : Fin 2) * 64 + 1 * k.val = k.val; omega)
    show V c main_v44 (((cfg1.win 1).blk t).view.emb (ix2 (0 : Fin 1) k)) = b (ix1 k)
    rw [e, hb]
    exact shapeCast_a_1a_apply b _ (0 : Fin 1) k
  · intro k q
    show V c main_arg5 (((cfg1.win 2).blk t).view.emb (ix2 k q)) = V c main_arg5 (ix2 k q)
    refine congrArg _ (funext fun a => Fin.ext ?_)
    match a with
    | ⟨0, _⟩ => show win1_2.index t (0 : Fin 2) * 64 + 1 * k.val = k.val; omega
    | ⟨1, _⟩ => show win1_2.index t (1 : Fin 2) * 64 + 1 * q.val = q.val; omega
  · show win1_3.index t (0 : Fin 2) * 10000 + 1 * (y 0).val = 10000 * t.val + (y 0).val; omega
  · show win1_3.index t (1 : Fin 2) * 64 + 1 * (y 1).val = (y 1).val; omega

/-- An index of the output array is in point `t`'s block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v45).slice (win1_3.rect t)).set ↔ _
  rw [View.set_slice_whole, Rect.mem_set_unit]
  exact Iff.rfl

/-- The ten blocks of 10000 rows tile the 100000 rows: row r is in block r / 10000. -/
theorem cover1 (i : S100000x64.Idx) : ∃ t : Fin cfg1.N, (cfg1.win 3).flush t = true ∧ i ∈ ((cfg1.win 3).blk t).view.set := by
  have hN : cfg1.N = 10 := N_1
  have hi0 : (i 0).val < 100000 := (i 0).isLt
  have hi1 : (i 1).val < 64 := (i 1).isLt
  refine ⟨⟨(i 0).val / 10000, by rw [hN]; omega⟩, flush1_3 _, ?_⟩
  obtain ⟨e00, e01, e10, e11, e20, e21, eo0, eo1⟩ := idx1 ⟨(i 0).val / 10000, by rw [hN]; omega⟩
  rw [mem_blk1]
  intro a
  match a with
  | ⟨0, _⟩ => show win1_3.index _ (0 : Fin 2) * 10000 ≤ (i 0).val ∧ (i 0).val < win1_3.index _ (0 : Fin 2) * 10000 + 10000; rw [eo0]; show (i 0).val / 10000 * 10000 ≤ (i 0).val ∧ (i 0).val < (i 0).val / 10000 * 10000 + 10000; omega
  | ⟨1, _⟩ => show win1_3.index _ (1 : Fin 2) * 64 ≤ (i 1).val ∧ (i 1).val < win1_3.index _ (1 : Fin 2) * 64 + 64; rw [eo1]; omega

/-- Region 1's output array after its ten write-backs is the dense layer of the aggregate the region found, when its bias row is the vector `b` stood up. -/
theorem region1_array (c : Dev nD) (b : (⟨S64, .f32⟩ : BufTy).Contents (Elt Ideal)) (hb : V c main_v44 = shapeCast S1x64 b shapeCasts_S64_S1x64) :
    (dat1 V c).arrAt 3 cfg1.N = Cert.Gcn.dense (F := Ideal) (V c main_v43) b (V c main_arg5) :=
  (dat1 V c).arrAt_eq_of_cover 3 _ (fun t _ => flushed1 V c b hb t) (cover1)

/-! ## Region 2 -/

/-- Where each window's block sits at grid point `t`: the row-tiled windows at block row `t`, the others at the origin. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- What point `t` writes back is block `t` of the dense layer of the aggregate the region found, when its bias row is the vector `b` stood up. -/
theorem flushed2 (c : Dev nD) (b : (⟨S64, .f32⟩ : BufTy).Contents (Elt Ideal)) (hb : V c main_v58 = shapeCast S1x64 b shapeCasts_S64_S1x64) (t : Fin cfg2.N) :
    (dat2 V c).flushed 3 t = ((cfg2.win 3).blk t).view.read (Elt Ideal) (Cert.Gcn.dense (F := Ideal) (V c main_v57) b (V c main_arg7)) := by
  show (cfg2.win 3).cut (grid2.coords t) ((dat2 V c).after 3 t) = _
  rw [after2_3]
  unfold out2_3
  rw [View.canon_unit_zero hz2]
  simp only [View.ld_unit_zero (S := S10000x64) hz2, View.ld_unit_zero (S := S1x64) hz2, View.ld_unit_zero (S := S64x64) hz2]
  obtain ⟨e00, e01, e10, e11, e20, e21, eo0, eo1⟩ := idx2 t
  funext y
  show k2_pay1 (iblk2 V c 0 t) (iblk2 V c 1 t) (iblk2 V c 2 t) y = (Cert.Gcn.dense (F := Ideal) (V c main_v57) b (V c main_arg7)) (((cfg2.win 3).blk t).view.emb y)
  refine block2 _ _ _ (V c main_v57) b (V c main_arg7) t.val ?_ ?_ ?_ y _ ?_ ?_
  · intro p k i hi0 hi1
    show V c main_v57 (((cfg2.win 0).blk t).view.emb (ix2 p k)) = V c main_v57 i
    refine congrArg _ (funext fun a => Fin.ext ?_)
    match a with
    | ⟨0, _⟩ => show win2_0.index t (0 : Fin 2) * 10000 + 1 * p.val = (i 0).val; omega
    | ⟨1, _⟩ => show win2_0.index t (1 : Fin 2) * 64 + 1 * k.val = (i 1).val; omega
  · intro k
    have e : ((cfg2.win 1).blk t).view.emb (ix2 (0 : Fin 1) k) = ix2 (0 : Fin 1) k := funext fun a => Fin.ext (by
      match a with
      | ⟨0, _⟩ => show win2_1.index t (0 : Fin 2) * 1 + 1 * 0 = 0; omega
      | ⟨1, _⟩ => show win2_1.index t (1 : Fin 2) * 64 + 1 * k.val = k.val; omega)
    show V c main_v58 (((cfg2.win 1).blk t).view.emb (ix2 (0 : Fin 1) k)) = b (ix1 k)
    rw [e, hb]
    exact shapeCast_a_1a_apply b _ (0 : Fin 1) k
  · intro k q
    show V c main_arg7 (((cfg2.win 2).blk t).view.emb (ix2 k q)) = V c main_arg7 (ix2 k q)
    refine congrArg _ (funext fun a => Fin.ext ?_)
    match a with
    | ⟨0, _⟩ => show win2_2.index t (0 : Fin 2) * 64 + 1 * k.val = k.val; omega
    | ⟨1, _⟩ => show win2_2.index t (1 : Fin 2) * 64 + 1 * q.val = q.val; omega
  · show win2_3.index t (0 : Fin 2) * 10000 + 1 * (y 0).val = 10000 * t.val + (y 0).val; omega
  · show win2_3.index t (1 : Fin 2) * 64 + 1 * (y 1).val = (y 1).val; omega

/-- An index of the output array is in point `t`'s block iff each coordinate is in the block's range on its axis. -/
theorem mem_blk2 (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v59).slice (win2_3.rect t)).set ↔ _
  rw [View.set_slice_whole, Rect.mem_set_unit]
  exact Iff.rfl

/-- The ten blocks of 10000 rows tile the 100000 rows: row r is in block r / 10000. -/
theorem cover2 (i : S100000x64.Idx) : ∃ t : Fin cfg2.N, (cfg2.win 3).flush t = true ∧ i ∈ ((cfg2.win 3).blk t).view.set := by
  have hN : cfg2.N = 10 := N_2
  have hi0 : (i 0).val < 100000 := (i 0).isLt
  have hi1 : (i 1).val < 64 := (i 1).isLt
  refine ⟨⟨(i 0).val / 10000, by rw [hN]; omega⟩, flush2_3 _, ?_⟩
  obtain ⟨e00, e01, e10, e11, e20, e21, eo0, eo1⟩ := idx2 ⟨(i 0).val / 10000, by rw [hN]; omega⟩
  rw [mem_blk2]
  intro a
  match a with
  | ⟨0, _⟩ => show win2_3.index _ (0 : Fin 2) * 10000 ≤ (i 0).val ∧ (i 0).val < win2_3.index _ (0 : Fin 2) * 10000 + 10000; rw [eo0]; show (i 0).val / 10000 * 10000 ≤ (i 0).val ∧ (i 0).val < (i 0).val / 10000 * 10000 + 10000; omega
  | ⟨1, _⟩ => show win2_3.index _ (1 : Fin 2) * 64 ≤ (i 1).val ∧ (i 1).val < win2_3.index _ (1 : Fin 2) * 64 + 64; rw [eo1]; omega

/-- Region 2's output array after its ten write-backs is the dense layer of the aggregate the region found, when its bias row is the vector `b` stood up. -/
theorem region2_array (c : Dev nD) (b : (⟨S64, .f32⟩ : BufTy).Contents (Elt Ideal)) (hb : V c main_v58 = shapeCast S1x64 b shapeCasts_S64_S1x64) :
    (dat2 V c).arrAt 3 cfg2.N = Cert.Gcn.dense (F := Ideal) (V c main_v57) b (V c main_arg7) :=
  (dat2 V c).arrAt_eq_of_cover 3 _ (fun t _ => flushed2 V c b hb t) (cover2)

/-! ## Region 3 -/

/-- Where each window's block sits at grid point `t`: the row-tiled windows at block row `t`, the others at the origin. -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0 :=
  (by decide +kernel : ∀ t : Fin grid3.N, _)

/-- What point `t` writes back is block `t` of the head of the aggregate the region found, when its three bias rows are the vectors stood up. -/
theorem flushed3 (c : Dev nD) (b3 : (⟨S64, .f32⟩ : BufTy).Contents (Elt Ideal)) (bp1 : (⟨S32, .f32⟩ : BufTy).Contents (Elt Ideal)) (bp2 : (⟨S1, .f32⟩ : BufTy).Contents (Elt Ideal)) (hb3 : V c main_v72 = shapeCast S1x64 b3 shapeCasts_S64_S1x64) (hbp1 : V c main_v73 = shapeCast S1x32 bp1 shapeCasts_S32_S1x32) (hbp2 : V c main_v74 = shapeCast S1x1 bp2 shapeCasts_S1_S1x1) (t : Fin cfg3.N) :
    (dat3 V c).flushed 6 t = ((cfg3.win 6).blk t).view.read (Elt Ideal) (Cert.Gcn.head (F := Ideal) (V c main_v71) b3 (V c main_arg9) bp1 (V c main_arg11) bp2) := by
  show (cfg3.win 6).cut (grid3.coords t) ((dat3 V c).after 6 t) = _
  rw [after3_6]
  unfold out3_6
  rw [View.canon_unit_zero hz2]
  simp only [View.ld_unit_zero (S := S10000x64) hz2, View.ld_unit_zero (S := S1x64) hz2, View.ld_unit_zero (S := S64x32) hz2, View.ld_unit_zero (S := S1x32) hz2, View.ld_unit_zero (S := S32x1) hz2, View.ld_unit_zero (S := S1x1) hz2]
  obtain ⟨e00, e01, e10, e11, e20, e21, e30, e31, e40, e41, e50, e51, eo0, eo1⟩ := idx3 t
  funext y
  show k3_pay1 (iblk3 V c 0 t) (iblk3 V c 1 t) (iblk3 V c 2 t) (iblk3 V c 3 t) (iblk3 V c 4 t) (iblk3 V c 5 t) y = (Cert.Gcn.head (F := Ideal) (V c main_v71) b3 (V c main_arg9) bp1 (V c main_arg11) bp2) (((cfg3.win 6).blk t).view.emb y)
  refine block3 _ _ _ _ _ _ (V c main_v71) b3 (V c main_arg9) bp1 (V c main_arg11) bp2 t.val ?_ ?_ ?_ ?_ ?_ ?_ y _ ?_ ?_
  · intro p k i hi0 hi1
    show V c main_v71 (((cfg3.win 0).blk t).view.emb (ix2 p k)) = V c main_v71 i
    refine congrArg _ (funext fun a => Fin.ext ?_)
    match a with
    | ⟨0, _⟩ => show win3_0.index t (0 : Fin 2) * 10000 + 1 * p.val = (i 0).val; omega
    | ⟨1, _⟩ => show win3_0.index t (1 : Fin 2) * 64 + 1 * k.val = (i 1).val; omega
  · intro k
    have e : ((cfg3.win 1).blk t).view.emb (ix2 (0 : Fin 1) k) = ix2 (0 : Fin 1) k := funext fun a => Fin.ext (by
      match a with
      | ⟨0, _⟩ => show win3_1.index t (0 : Fin 2) * 1 + 1 * 0 = 0; omega
      | ⟨1, _⟩ => show win3_1.index t (1 : Fin 2) * 64 + 1 * k.val = k.val; omega)
    show V c main_v72 (((cfg3.win 1).blk t).view.emb (ix2 (0 : Fin 1) k)) = b3 (ix1 k)
    rw [e, hb3]
    exact shapeCast_a_1a_apply b3 _ (0 : Fin 1) k
  · intro k q
    show V c main_arg9 (((cfg3.win 2).blk t).view.emb (ix2 k q)) = V c main_arg9 (ix2 k q)
    refine congrArg _ (funext fun a => Fin.ext ?_)
    match a with
    | ⟨0, _⟩ => show win3_2.index t (0 : Fin 2) * 64 + 1 * k.val = k.val; omega
    | ⟨1, _⟩ => show win3_2.index t (1 : Fin 2) * 32 + 1 * q.val = q.val; omega
  · intro k
    have e : ((cfg3.win 3).blk t).view.emb (ix2 (0 : Fin 1) k) = ix2 (0 : Fin 1) k := funext fun a => Fin.ext (by
      match a with
      | ⟨0, _⟩ => show win3_3.index t (0 : Fin 2) * 1 + 1 * 0 = 0; omega
      | ⟨1, _⟩ => show win3_3.index t (1 : Fin 2) * 32 + 1 * k.val = k.val; omega)
    show V c main_v73 (((cfg3.win 3).blk t).view.emb (ix2 (0 : Fin 1) k)) = bp1 (ix1 k)
    rw [e, hbp1]
    exact shapeCast_a_1a_apply bp1 _ (0 : Fin 1) k
  · intro k q
    show V c main_arg11 (((cfg3.win 4).blk t).view.emb (ix2 k q)) = V c main_arg11 (ix2 k q)
    refine congrArg _ (funext fun a => Fin.ext ?_)
    match a with
    | ⟨0, _⟩ => show win3_4.index t (0 : Fin 2) * 32 + 1 * k.val = k.val; omega
    | ⟨1, _⟩ => show win3_4.index t (1 : Fin 2) * 1 + 1 * q.val = q.val; omega
  · intro k
    have e : ((cfg3.win 5).blk t).view.emb (ix2 (0 : Fin 1) k) = ix2 (0 : Fin 1) k := funext fun a => Fin.ext (by
      match a with
      | ⟨0, _⟩ => show win3_5.index t (0 : Fin 2) * 1 + 1 * 0 = 0; omega
      | ⟨1, _⟩ => show win3_5.index t (1 : Fin 2) * 1 + 1 * k.val = k.val; omega)
    show V c main_v74 (((cfg3.win 5).blk t).view.emb (ix2 (0 : Fin 1) k)) = bp2 (ix1 k)
    rw [e, hbp2]
    exact shapeCast_a_1a_apply bp2 _ (0 : Fin 1) k
  · show win3_6.index t (0 : Fin 2) * 10000 + 1 * (y 0).val = 10000 * t.val + (y 0).val; omega
  · show win3_6.index t (1 : Fin 2) * 1 + 1 * (y 1).val = (y 1).val; omega

/-- An index of the output array is in point `t`'s block iff each coordinate is in the block's range on its axis. -/
theorem mem_blk3 (t : Fin cfg3.N) (i : S100000x1.Idx) :
    i ∈ ((cfg3.win 6).blk t).view.set ↔ ∀ a : Fin 2, win3_6.index t a * S10000x1.size a ≤ (i a).val ∧ (i a).val < win3_6.index t a * S10000x1.size a + S10000x1.size a := by
  show i ∈ ((View.whole main_v75).slice (win3_6.rect t)).set ↔ _
  rw [View.set_slice_whole, Rect.mem_set_unit]
  exact Iff.rfl

/-- The ten blocks of 10000 rows tile the 100000 rows: row r is in block r / 10000. -/
theorem cover3 (i : S100000x1.Idx) : ∃ t : Fin cfg3.N, (cfg3.win 6).flush t = true ∧ i ∈ ((cfg3.win 6).blk t).view.set := by
  have hN : cfg3.N = 10 := N_3
  have hi0 : (i 0).val < 100000 := (i 0).isLt
  have hi1 : (i 1).val < 1 := (i 1).isLt
  refine ⟨⟨(i 0).val / 10000, by rw [hN]; omega⟩, flush3_6 _, ?_⟩
  obtain ⟨e00, e01, e10, e11, e20, e21, e30, e31, e40, e41, e50, e51, eo0, eo1⟩ := idx3 ⟨(i 0).val / 10000, by rw [hN]; omega⟩
  rw [mem_blk3]
  intro a
  match a with
  | ⟨0, _⟩ => show win3_6.index _ (0 : Fin 2) * 10000 ≤ (i 0).val ∧ (i 0).val < win3_6.index _ (0 : Fin 2) * 10000 + 10000; rw [eo0]; show (i 0).val / 10000 * 10000 ≤ (i 0).val ∧ (i 0).val < (i 0).val / 10000 * 10000 + 10000; omega
  | ⟨1, _⟩ => show win3_6.index _ (1 : Fin 2) * 1 ≤ (i 1).val ∧ (i 1).val < win3_6.index _ (1 : Fin 2) * 1 + 1; rw [eo1]; omega

/-- Region 3's output array after its ten write-backs is the head of the aggregate the region found, when its three bias rows are the vectors stood up. -/
theorem region3_array (c : Dev nD) (b3 : (⟨S64, .f32⟩ : BufTy).Contents (Elt Ideal)) (bp1 : (⟨S32, .f32⟩ : BufTy).Contents (Elt Ideal)) (bp2 : (⟨S1, .f32⟩ : BufTy).Contents (Elt Ideal)) (hb3 : V c main_v72 = shapeCast S1x64 b3 shapeCasts_S64_S1x64) (hbp1 : V c main_v73 = shapeCast S1x32 bp1 shapeCasts_S32_S1x32) (hbp2 : V c main_v74 = shapeCast S1x1 bp2 shapeCasts_S1_S1x1) :
    (dat3 V c).arrAt 6 cfg3.N = Cert.Gcn.head (F := Ideal) (V c main_v71) b3 (V c main_arg9) bp1 (V c main_arg11) bp2 :=
  (dat3 V c).arrAt_eq_of_cover 6 _ (fun t _ => flushed3 V c b3 bp1 bp2 hb3 hbp1 hbp2 t) (cover3)

end Cert.KernelIdeal.Hand

end
-- ==== Proof.Chain.lean ====
/-
  The idealized kernel's result as the network of the launch arguments.

  The run's buffer contents are a fold through the program's segments. Before the first region the host forms the edge
  lists and the edge weights; region 0 leaves x·W1; each following stretch aggregates the previous region's output over
  the edges and stands the next bias up as a row; regions 1 and 2 leave a dense layer of what they find; region 3 leaves
  the head. A buffer no later segment writes is carried unchanged, so every stage reads the launch arguments, and the
  result buffer ends at the network of them.
-/
import proofs.«117196_j8624294331203_1_alg».proof.Proof.Gen.KernelIdeal.Frame
import proofs.«117196_j8624294331203_1_alg».proof.Proof.Host
import proofs.«117196_j8624294331203_1_alg».proof.Proof.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem Idealize.ShloMosaic.StableHlo

variable (m : (ℓ : Loc nD τ sig) → Buf (Elt Ideal) ℓ) (ρ : Dev nD → PrngReg)

/-! ## Buffers carried unchanged from one boundary to a later one -/

/-- At the first region's entry, a buffer the three opening stretches do not write holds its launch contents. -/
theorem at3 (c : Dev nD) (r : Ref sig .tc) (h0 : r ∉ written0) (h1 : r ∉ written0a) (h2 : r ∉ written0b) :
    W3 m ρ c (Proc.devRef .tc r) = m ((c : Thread nD τ).loc r) :=
  (pre_keeps (W0 m ρ c) r h0 h1 h2).trans rfl

theorem rel4 (c : Dev nD) (r : Ref sig .tc) (h4 : ∀ w, Pipeline.arrRef spec0 w ≠ r) :
    W4 m ρ c (Proc.devRef .tc r) = W3 m ρ c (Proc.devRef .tc r) := W4_of_ne m ρ c r h4
theorem rel5 (c : Dev nD) (r : Ref sig .tc) (h4 : ∀ w, Pipeline.arrRef spec0 w ≠ r) (h5 : r ∉ written1) :
    W5 m ρ c (Proc.devRef .tc r) = W3 m ρ c (Proc.devRef .tc r) := (keeps1 (W4 m ρ c) r h5).trans (rel4 m ρ c r h4)
theorem rel6 (c : Dev nD) (r : Ref sig .tc) (h4 : ∀ w, Pipeline.arrRef spec0 w ≠ r) (h5 : r ∉ written1)
    (h6 : ∀ w, Pipeline.arrRef spec1 w ≠ r) :
    W6 m ρ c (Proc.devRef .tc r) = W3 m ρ c (Proc.devRef .tc r) := (W6_of_ne m ρ c r h6).trans (rel5 m ρ c r h4 h5)
theorem rel7 (c : Dev nD) (r : Ref sig .tc) (h4 : ∀ w, Pipeline.arrRef spec0 w ≠ r) (h5 : r ∉ written1)
    (h6 : ∀ w, Pipeline.arrRef spec1 w ≠ r) (h7 : r ∉ written2) :
    W7 m ρ c (Proc.devRef .tc r) = W3 m ρ c (Proc.devRef .tc r) := (keeps2 (W6 m ρ c) r h7).trans (rel6 m ρ c r h4 h5 h6)
theorem rel8 (c : Dev nD) (r : Ref sig .tc) (h4 : ∀ w, Pipeline.arrRef spec0 w ≠ r) (h5 : r ∉ written1)
    (h6 : ∀ w, Pipeline.arrRef spec1 w ≠ r) (h7 : r ∉ written2) (h8 : ∀ w, Pipeline.arrRef spec2 w ≠ r) :
    W8 m ρ c (Proc.devRef .tc r) = W3 m ρ c (Proc.devRef .tc r) := (W8_of_ne m ρ c r h8).trans (rel7 m ρ c r h4 h5 h6 h7)
theorem rel9 (c : Dev nD) (r : Ref sig .tc) (h4 : ∀ w, Pipeline.arrRef spec0 w ≠ r) (h5 : r ∉ written1)
    (h6 : ∀ w, Pipeline.arrRef spec1 w ≠ r) (h7 : r ∉ written2) (h8 : ∀ w, Pipeline.arrRef spec2 w ≠ r) (h9 : r ∉ written3) :
    W9 m ρ c (Proc.devRef .tc r) = W3 m ρ c (Proc.devRef .tc r) := (keeps3 (W8 m ρ c) r h9).trans (rel8 m ρ c r h4 h5 h6 h7 h8)

/-! ## The stages -/

/-- The edge lists and weights at the first region's entry. -/
theorem src3 (c : Dev nD) : W3 m ρ c (Proc.devRef .tc main_v3) = Cert.Gcn.srcList (m ((c : Thread nD τ).loc main_arg1)) := pre_src (W0 m ρ c)
theorem dst3 (c : Dev nD) : W3 m ρ c (Proc.devRef .tc main_v6) = Cert.Gcn.dstList (m ((c : Thread nD τ).loc main_arg1)) := pre_dst (W0 m ρ c)
theorem weight3 (c : Dev nD) : W3 m ρ c (Proc.devRef .tc main_v30) = Cert.Gcn.edgeWeight (Cert.Gcn.srcList (m ((c : Thread nD τ).loc main_arg1))) (Cert.Gcn.dstList (m ((c : Thread nD τ).loc main_arg1))) := pre_weight (W0 m ρ c)

/-- Region 0 leaves x·W1. -/
theorem out0 (c : Dev nD) : W4 m ρ c (Proc.devRef .tc main_v31) = Cert.Gcn.firstProduct (m ((c : Thread nD τ).loc main_arg0)) (m ((c : Thread nD τ).loc main_arg3)) := by
  refine (W4_arr m ρ c 2).trans ((region0_array (V3 m ρ) c).trans ?_)
  show Cert.Gcn.firstProduct (W3 m ρ c (Proc.devRef .tc main_arg0)) (W3 m ρ c (Proc.devRef .tc main_arg3)) = _
  rw [at3 m ρ c main_arg0 (by decide) (by decide) (by decide), at3 m ρ c main_arg3 (by decide) (by decide) (by decide)]

/-- The first aggregation. -/
theorem agg0 (c : Dev nD) : W5 m ρ c (Proc.devRef .tc main_v43) = Cert.Gcn.aggregate (Cert.Gcn.srcList (m ((c : Thread nD τ).loc main_arg1))) (Cert.Gcn.dstList (m ((c : Thread nD τ).loc main_arg1))) (Cert.Gcn.edgeWeight (Cert.Gcn.srcList (m ((c : Thread nD τ).loc main_arg1))) (Cert.Gcn.dstList (m ((c : Thread nD τ).loc main_arg1)))) (Cert.Gcn.firstProduct (m ((c : Thread nD τ).loc main_arg0)) (m ((c : Thread nD τ).loc main_arg3))) := by
  refine (agg1 (W4 m ρ c)).trans ?_
  rw [out0 m ρ c, rel4 m ρ c main_v3 (by decide), rel4 m ρ c main_v6 (by decide), rel4 m ρ c main_v30 (by decide),
    src3 m ρ c, dst3 m ρ c, weight3 m ρ c]

/-- The first bias as a row. -/
theorem bias1 (c : Dev nD) : W5 m ρ c (Proc.devRef .tc main_v44) = shapeCast S1x64 (m ((c : Thread nD τ).loc main_arg4)) shapeCasts_S64_S1x64 := by
  refine (row1 (W4 m ρ c)).trans ?_
  rw [rel4 m ρ c main_arg4 (by decide), at3 m ρ c main_arg4 (by decide) (by decide) (by decide)]

/-- Region 1 leaves the first dense layer. -/
theorem out1 (c : Dev nD) : W6 m ρ c (Proc.devRef .tc main_v45) = Cert.Gcn.dense (Cert.Gcn.aggregate (Cert.Gcn.srcList (m ((c : Thread nD τ).loc main_arg1))) (Cert.Gcn.dstList (m ((c : Thread nD τ).loc main_arg1))) (Cert.Gcn.edgeWeight (Cert.Gcn.srcList (m ((c : Thread nD τ).loc main_arg1))) (Cert.Gcn.dstList (m ((c : Thread nD τ).loc main_arg1)))) (Cert.Gcn.firstProduct (m ((c : Thread nD τ).loc main_arg0)) (m ((c : Thread nD τ).loc main_arg3)))) (m ((c : Thread nD τ).loc main_arg4)) (m ((c : Thread nD τ).loc main_arg5)) := by
  refine (W6_arr m ρ c 3).trans ((region1_array (V5 m ρ) c (m ((c : Thread nD τ).loc main_arg4)) (bias1 m ρ c)).trans ?_)
  show Cert.Gcn.dense (W5 m ρ c (Proc.devRef .tc main_v43)) (m ((c : Thread nD τ).loc main_arg4)) (W5 m ρ c (Proc.devRef .tc main_arg5)) = _
  rw [agg0 m ρ c, rel5 m ρ c main_arg5 (by decide) (by decide), at3 m ρ c main_arg5 (by decide) (by decide) (by decide)]

/-- The second aggregation. -/
theorem agg1' (c : Dev nD) : W7 m ρ c (Proc.devRef .tc main_v57) = Cert.Gcn.aggregate (Cert.Gcn.srcList (m ((c : Thread nD τ).loc main_arg1))) (Cert.Gcn.dstList (m ((c : Thread nD τ).loc main_arg1))) (Cert.Gcn.edgeWeight (Cert.Gcn.srcList (m ((c : Thread nD τ).loc main_arg1))) (Cert.Gcn.dstList (m ((c : Thread nD τ).loc main_arg1)))) (Cert.Gcn.dense (Cert.Gcn.aggregate (Cert.Gcn.srcList (m ((c : Thread nD τ).loc main_arg1))) (Cert.Gcn.dstList (m ((c : Thread nD τ).loc main_arg1))) (Cert.Gcn.edgeWeight (Cert.Gcn.srcList (m ((c : Thread nD τ).loc main_arg1))) (Cert.Gcn.dstList (m ((c : Thread nD τ).loc main_arg1)))) (Cert.Gcn.firstProduct (m ((c : Thread nD τ).loc main_arg0)) (m ((c : Thread nD τ).loc main_arg3)))) (m ((c : Thread nD τ).loc main_arg4)) (m ((c : Thread nD τ).loc main_arg5))) := by
  refine (agg2 (W6 m ρ c)).trans ?_
  rw [out1 m ρ c, rel6 m ρ c main_v3 (by decide) (by decide) (by decide), rel6 m ρ c main_v6 (by decide) (by decide) (by decide),
    rel6 m ρ c main_v30 (by decide) (by decide) (by decide), src3 m ρ c, dst3 m ρ c, weight3 m ρ c]

/-- The second bias as a row. -/
theorem bias2 (c : Dev nD) : W7 m ρ c (Proc.devRef .tc main_v58) = shapeCast S1x64 (m ((c : Thread nD τ).loc main_arg6)) shapeCasts_S64_S1x64 := by
  refine (row2 (W6 m ρ c)).trans ?_
  rw [rel6 m ρ c main_arg6 (by decide) (by decide) (by decide), at3 m ρ c main_arg6 (by decide) (by decide) (by decide)]

/-- Region 2 leaves the second dense layer. -/
theorem out2 (c : Dev nD) : W8 m ρ c (Proc.devRef .tc main_v59) = Cert.Gcn.dense (Cert.Gcn.aggregate (Cert.Gcn.srcList (m ((c : Thread nD τ).loc main_arg1))) (Cert.Gcn.dstList (m ((c : Thread nD τ).loc main_arg1))) (Cert.Gcn.edgeWeight (Cert.Gcn.srcList (m ((c : Thread nD τ).loc main_arg1))) (Cert.Gcn.dstList (m ((c : Thread nD τ).loc main_arg1)))) (Cert.Gcn.dense (Cert.Gcn.aggregate (Cert.Gcn.srcList (m ((c : Thread nD τ).loc main_arg1))) (Cert.Gcn.dstList (m ((c : Thread nD τ).loc main_arg1))) (Cert.Gcn.edgeWeight (Cert.Gcn.srcList (m ((c : Thread nD τ).loc main_arg1))) (Cert.Gcn.dstList (m ((c : Thread nD τ).loc main_arg1)))) (Cert.Gcn.firstProduct (m ((c : Thread nD τ).loc main_arg0)) (m ((c : Thread nD τ).loc main_arg3)))) (m ((c : Thread nD τ).loc main_arg4)) (m ((c : Thread nD τ).loc main_arg5)))) (m ((c : Thread nD τ).loc main_arg6)) (m ((c : Thread nD τ).loc main_arg7)) := by
  refine (W8_arr m ρ c 3).trans ((region2_array (V7 m ρ) c (m ((c : Thread nD τ).loc main_arg6)) (bias2 m ρ c)).trans ?_)
  show Cert.Gcn.dense (W7 m ρ c (Proc.devRef .tc main_v57)) (m ((c : Thread nD τ).loc main_arg6)) (W7 m ρ c (Proc.devRef .tc main_arg7)) = _
  rw [agg1' m ρ c, rel7 m ρ c main_arg7 (by decide) (by decide) (by decide) (by decide), at3 m ρ c main_arg7 (by decide) (by decide) (by decide)]

/-- The third aggregation. -/
theorem agg2' (c : Dev nD) : W9 m ρ c (Proc.devRef .tc main_v71) = Cert.Gcn.aggregate (Cert.Gcn.srcList (m ((c : Thread nD τ).loc main_arg1))) (Cert.Gcn.dstList (m ((c : Thread nD τ).loc main_arg1))) (Cert.Gcn.edgeWeight (Cert.Gcn.srcList (m ((c : Thread nD τ).loc main_arg1))) (Cert.Gcn.dstList (m ((c : Thread nD τ).loc main_arg1)))) (Cert.Gcn.dense (Cert.Gcn.aggregate (Cert.Gcn.srcList (m ((c : Thread nD τ).loc main_arg1))) (Cert.Gcn.dstList (m ((c : Thread nD τ).loc main_arg1))) (Cert.Gcn.edgeWeight (Cert.Gcn.srcList (m ((c : Thread nD τ).loc main_arg1))) (Cert.Gcn.dstList (m ((c : Thread nD τ).loc main_arg1)))) (Cert.Gcn.dense (Cert.Gcn.aggregate (Cert.Gcn.srcList (m ((c : Thread nD τ).loc main_arg1))) (Cert.Gcn.dstList (m ((c : Thread nD τ).loc main_arg1))) (Cert.Gcn.edgeWeight (Cert.Gcn.srcList (m ((c : Thread nD τ).loc main_arg1))) (Cert.Gcn.dstList (m ((c : Thread nD τ).loc main_arg1)))) (Cert.Gcn.firstProduct (m ((c : Thread nD τ).loc main_arg0)) (m ((c : Thread nD τ).loc main_arg3)))) (m ((c : Thread nD τ).loc main_arg4)) (m ((c : Thread nD τ).loc main_arg5)))) (m ((c : Thread nD τ).loc main_arg6)) (m ((c : Thread nD τ).loc main_arg7))) := by
  refine (agg3 (W8 m ρ c)).trans ?_
  rw [out2 m ρ c, rel8 m ρ c main_v3 (by decide) (by decide) (by decide) (by decide) (by decide),
    rel8 m ρ c main_v6 (by decide) (by decide) (by decide) (by decide) (by decide),
    rel8 m ρ c main_v30 (by decide) (by decide) (by decide) (by decide) (by decide), src3 m ρ c, dst3 m ρ c, weight3 m ρ c]

/-- The head's three biases as rows. -/
theorem bias3 (c : Dev nD) : W9 m ρ c (Proc.devRef .tc main_v72) = shapeCast S1x64 (m ((c : Thread nD τ).loc main_arg8)) shapeCasts_S64_S1x64 := by
  refine (row3 (W8 m ρ c)).trans ?_
  rw [rel8 m ρ c main_arg8 (by decide) (by decide) (by decide) (by decide) (by decide), at3 m ρ c main_arg8 (by decide) (by decide) (by decide)]
theorem bias3h (c : Dev nD) : W9 m ρ c (Proc.devRef .tc main_v73) = shapeCast S1x32 (m ((c : Thread nD τ).loc main_arg10)) shapeCasts_S32_S1x32 := by
  refine (row3h (W8 m ρ c)).trans ?_
  rw [rel8 m ρ c main_arg10 (by decide) (by decide) (by decide) (by decide) (by decide), at3 m ρ c main_arg10 (by decide) (by decide) (by decide)]
theorem bias3o (c : Dev nD) : W9 m ρ c (Proc.devRef .tc main_v74) = shapeCast S1x1 (m ((c : Thread nD τ).loc main_arg12)) shapeCasts_S1_S1x1 := by
  refine (row3o (W8 m ρ c)).trans ?_
  rw [rel8 m ρ c main_arg12 (by decide) (by decide) (by decide) (by decide) (by decide), at3 m ρ c main_arg12 (by decide) (by decide) (by decide)]

/-- THE RESULT: the last region's output array is the network of the launch arguments. -/
theorem kernel_value (c : Dev nD) :
    W10 m ρ c (Proc.devRef .tc main_v75)
      = Cert.Gcn.network (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold Cert.Gcn.network Cert.Gcn.layers
  refine (W10_arr m ρ c 6).trans ((region3_array (V9 m ρ) c (m ((c : Thread nD τ).loc main_arg8)) (m ((c : Thread nD τ).loc main_arg10)) (m ((c : Thread nD τ).loc main_arg12)) (bias3 m ρ c) (bias3h m ρ c) (bias3o m ρ c)).trans ?_)
  show Cert.Gcn.head (W9 m ρ c (Proc.devRef .tc main_v71)) (m ((c : Thread nD τ).loc main_arg8)) (W9 m ρ c (Proc.devRef .tc main_arg9)) (m ((c : Thread nD τ).loc main_arg10)) (W9 m ρ c (Proc.devRef .tc main_arg11)) (m ((c : Thread nD τ).loc main_arg12)) = _
  rw [agg2' m ρ c, rel9 m ρ c main_arg9 (by decide) (by decide) (by decide) (by decide) (by decide) (by decide), at3 m ρ c main_arg9 (by decide) (by decide) (by decide),
    rel9 m ρ c main_arg11 (by decide) (by decide) (by decide) (by decide) (by decide) (by decide), at3 m ρ c main_arg11 (by decide) (by decide) (by decide)]

end Cert.KernelIdeal.Hand

end
-- ==== Proof.RefValue.lean ====
/-
  The reference program's result is the network of the argument arrays: its run ends with the result buffer at the
  operations' composed term, and that term is `Cert.Gcn.network` with every stage function unfolded.
-/
import proofs.«117196_j8624294331203_1_alg».proof.Proof.RefRunPatched
import proofs.«117196_j8624294331203_1_alg».proof.Proof.Spec

noncomputable section

namespace Cert.Gcn.Ref

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The run's term for the result is the network of the arguments: the same operations in the same order. -/
theorem result_term (m : (ℓ : Loc nD τ sig) → Buf (Elt F) ℓ) (c : Dev nD) :
    Cert.ReferenceIdeal.RunP.res_main_v92 m c
      = Cert.Gcn.network (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.RunP.res_main_v92 Cert.Gcn.network Cert.Gcn.layers Cert.Gcn.head Cert.Gcn.hidden Cert.Gcn.dense
    Cert.Gcn.biased Cert.Gcn.firstProduct Cert.Gcn.aggregate Cert.Gcn.edgeWeight Cert.Gcn.nodeWeight Cert.Gcn.degree
    Cert.Gcn.wrapped Cert.Gcn.column Cert.Gcn.srcList Cert.Gcn.dstList
  rfl

/-- Every weakly fair execution of the reference ends with the result at the network of the arguments, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v92)
        = Cert.Gcn.network (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (result_term m c), (h c).2⟩) (Cert.ReferenceIdeal.RunP.run m ρ)

end Cert.Gcn.Ref

end
-- ==== Proof.lean ====
/-
  The certificate: a graph network of three graph-convolution layers and a two-layer head on 100000 nodes and 1600000
  edges, as a kernel program against its reference.

  Both programs form, on the host, the edge lists with self loops, every node's degree, the inverse root of the degree and
  the edge weights, and aggregate a feature matrix over the edges by gather, multiply and accumulate. They differ only in
  the dense steps: the reference multiplies whole [100000, ·] matrices on the host; the kernel program runs four kernel
  regions, each over ten blocks of 10000 rows, that cast their operands to bf16 and multiply into a zero accumulator, the
  bias add and the clamp at 0 fused in front of the product. Over the extended reals a change of float format is the
  identity and a product into a zero accumulator is the plain sum over the contracted axis, so each region's output array
  is the reference's dense step of the same arrays, row by row (Proof/Regions.lean), the host operations between them are
  the same functions (Proof/Host.lean), and the two results are one function of the arguments, `Cert.Gcn.network`
  (Proof/Spec.lean; the kernel side in Proof/Chain.lean, the reference side in Proof/RefValue.lean). No law of arithmetic
  beyond that is used, so the precondition is never opened.

  The frames of the two kernel programs are the generated frame certificates; the reference's frame is its run with the
  result dropped. The ideal pass rewrote nothing, so `preserves` is `True`.
-/
import proofs.«117196_j8624294331203_1_alg».proof.Defs
import proofs.«117196_j8624294331203_1_alg».proof.Proof.Gen.Kernel
import proofs.«117196_j8624294331203_1_alg».proof.Proof.Gen.Kernel.Frame
import proofs.«117196_j8624294331203_1_alg».proof.Proof.Gen.KernelIdeal
import proofs.«117196_j8624294331203_1_alg».proof.Proof.Gen.KernelIdeal.Frame
import proofs.«117196_j8624294331203_1_alg».proof.Proof.Gen.ReferenceIdeal
import proofs.«117196_j8624294331203_1_alg».proof.Proof.Gen.Pre_finite_inputs
import proofs.«117196_j8624294331203_1_alg».proof.Proof.KRun
import proofs.«117196_j8624294331203_1_alg».proof.Proof.Chain
import proofs.«117196_j8624294331203_1_alg».proof.Proof.RefValue
import Idealize.ShloMosaic.Adequacy
import Idealize.ShloMosaic.Init

noncomputable section

namespace Cert.Proof

open Idealize.ShloMosaic Idealize.SL.Sem

/-- The idealized kernel program's run: the result buffer ends at the network of the launch arguments, the arguments
    unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v75)
          = Cert.Gcn.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run Cert.KernelIdeal.defs _ _).mono
    (fun _ h c => ⟨(h c).1.trans (Cert.KernelIdeal.Hand.kernel_value m ρ c), (h c).2⟩)
    (Cert.KernelIdeal.Hand.run_result (F := Ideal) m ρ)

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.Gcn.Ref.run (F := Ideal) m ρ)

/-- The ideal pass rewrote no operation. -/
theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.Gcn.Ref.run (F := Ideal) m' ρ')
  obtain ⟨e0, e1, _, e3, e4, e5, e6, e7, e8, e9, e10, e11, e12⟩ := hagree c
  rw [e0, e1, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
